-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16384x1024 .f32) (main_arg1 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S16384x1024 : Shape := ⟨2, ![16384, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .bf16⟩
  | .hbm, ⟨3, _⟩ => ⟨S16384x1024, .f32⟩
  | .local _ .vmem, ⟨0, _⟩ => ⟨S1024x1024, .f32⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S1024x1024_S1024x1024 : S1024x1024.ShapeCasts S1024x1024
  transposes_S1024x1024_p1_0_S1024x1024 : S1024x1024.Transposes [1, 0] S1024x1024
  dot_S1024x1024_S1024x1024_S1024x1024_1_0_0_1_n_n_wf : DotDims.WF S1024x1024 S1024x1024 S1024x1024 [1] [0] [0] [1] [] []
  hstage0_0 : ∀ j, (stage0_0 j).IsWhole
  hstage0_1 : ∀ j, (stage0_1 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S16384x1024.size a
  hwx1_2 : ∀ i : grid1.Coords, EltTy.bits .f32 = 32 ∨ (Rect.block (s := S16384x1024) S1024x1024.size (cc1_transform_2 i) (hinb1_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_v0) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x1 : Shape := ⟨2, ![1024, 1]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x1024, .f32⟩
  | .hbm, ⟨11, _⟩ => ⟨S16384x1024, .f32⟩
  | .hbm, ⟨12, _⟩ => ⟨S1024x1024, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1024x1024, .f32⟩
  | .hbm, ⟨21, _⟩ => ⟨S1024x1024, .f32⟩
  | .hbm, ⟨22, _⟩ => ⟨S16384x1024, .f32⟩
  | .hbm, ⟨23, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  reducesTo_S1024x1024_S1024_d1 : S1024x1024.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  dot_S16384x1024_S1024x1024_S16384x1024_1_1_0_0_n_n_wf : DotDims.WF S16384x1024 S1024x1024 S16384x1024 [1] [1] [0] [0] [] []

variable [Facts₀]

def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf

class Facts : Prop extends Facts₀ where

variable [Facts]
-- ==== Proof.RunNamed.lean ====
/-
  The kernel program's run, with its result array named.

  The program is two kernel regions in a row: the first writes the table of unit-length centroid rows, the second reads
  it beside the batch and writes the result.  Every weakly fair execution terminates without a fault, and the final
  memory holds, at every buffer that outlives a region, the contents obtained by folding the two regions' write-backs
  over the launch memory.  The frame certificate reads that fold at the two argument arrays; here the same run is read
  at the result array as well, and the fold is walked back one region at a time:

  * the result array is what the second region's write-backs leave of it;
  * the table the second region finds is what the first region's write-backs leave of it;
  * the batch the second region finds and the centroids the first region finds are the launch contents.
-/
import proofs.«175156_j9620726743322_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the contents the
    two regions' write-backs leave (`V2`) and the two argument arrays as launched. -/
theorem run_named : θ_run defs (onTc (τ := τ) (main (F := F))) ⟨m, fun _ => 0, ρ⟩ (fun r => ∀ c : Dev nD,
      r.2.mem ((c.tc : Thread nD τ).loc main_v1) = V2 m ρ c main_v1
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c)⟩)

/-- The result array is what the second region's write-backs leave of it. -/
theorem result_arr (c : Dev nD) : V2 m ρ c main_v1 = (dat1 (V1 m ρ) c).arrAt 2 cfg1.N :=
  W2_arr m ρ c 2

/-- The table the second region finds is what the first region's write-backs leave of it. -/
theorem table_arr (c : Dev nD) : V1 m ρ c main_v0 = (dat0 (V0 m ρ) c).arrAt 1 cfg0.N :=
  W1_arr m ρ c 1

/-- The batch the second region finds is the launch contents: the first region does not touch it. -/
theorem batch_arr (c : Dev nD) : V1 m ρ c main_arg0 = m ((c.tc : Thread nD τ).loc main_arg0) :=
  W1_of_ne m ρ c main_arg0 (by decide)

/-- The centroids the first region finds are the launch contents. -/
theorem centroids_arr (c : Dev nD) : V0 m ρ c main_arg1 = m ((c.tc : Thread nD τ).loc main_arg1) := rfl

end Cert.KernelIdeal.Result

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibRank3.lean ====
/-
  Layout operations and one-axis reductions of rank-3 arrays read at an index written by coordinates.

  A reduction of `[a, b, c]` over its middle or its last axis with kept dimensions comes back over the reduced
  axis through a cast to `[a, 1, c]` (or `[a, b, 1]`) and a broadcast to `[a, b, c]`; the same two steps carry a
  matrix `[a, b]` along a new last axis (`[a, b] → [a, b, 1] → [a, b, c]`) or along a new middle axis
  (`[a, c] → [a, 1, c] → [a, b, c]`). Each is read here at `(i, j, k)`. The reductions: at the ideal values a sum
  over one axis is the `Fin`-indexed sum over that axis's coordinates, and a maximum over the last axis of a matrix
  is the fold of `max` over them. General lemmas: any extents.
-/
import Idealize.ShloMosaic.Lib.Pipeline.Value
import Idealize.ShloMosaic.Lib.ValueIdx
import Idealize.ShloMosaic.PureOps.Ideal.Laws

namespace Cert.LibRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A matrix carried along a new last axis: `[a, b] → [a, b, 1] → [a, b, c]` at `(i, j, k)` is the matrix at `(i, j)`. -/
theorem keepLast_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h) h' (ix3 i j k) = x (ix2 i j) :=
  (broadcastTo_ab1_abc_apply _ h' i j k).trans (shapeCast_ab_ab1_apply x h i j 0)

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A matrix carried along a new middle axis: `[a, c] → [a, 1, c] → [a, b, c]` at `(i, j, k)` is the matrix at `(i, k)`. -/
theorem keepMid_apply {a b c : ℕ} (x : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) h' (ix3 i j k) = x (ix2 i k) :=
  (broadcastTo_a1c_abc_apply _ h' i j k).trans (shapeCast_ac_a1c_apply x h i 0 k)

/-! ## One-axis reductions at the ideal values, at coordinates -/

variable {φ : FTy}

/-- The sum of an `[a, b]` matrix over its last axis, at row `i`. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ j : Fin b, src (ix2 i j) :=
  (Ideal.multiReduction_add_single src acc h hφ hacc (ix1 i)).trans
    (Finset.sum_congr rfl fun j _ => congrArg src (funext fun d => Fin.ext (by
      match d with | ⟨0, _⟩ => rfl | ⟨1, _⟩ => rfl)))

/-- The maximum of an `[a, b]` matrix over its last axis, at row `i`: the fold of `max` from the accumulator's value. -/
theorem max_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun j => src (ix2 i j)) :=
  (Ideal.multiReduction_maximumf_single src acc h hφ hacc (ix1 i)).trans
    (congrArg (Finset.fold max (Ideal.ofBits φ acc) · (Finset.univ : Finset (Fin b)))
      (funext fun j => congrArg src (funext fun d => Fin.ext (by
        match d with | ⟨0, _⟩ => rfl | ⟨1, _⟩ => rfl))))

/-- The sum of an `[a, b, c]` array over its middle axis, at `(i, k)`. -/
theorem sum_mid3 {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (funext fun d => Fin.ext (by
      match d with | ⟨0, _⟩ => rfl | ⟨1, _⟩ => rfl | ⟨2, _⟩ => rfl)))

/-- The sum of an `[a, b, c]` array over its last axis, at `(i, j)`. -/
theorem sum_last3 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun d => Fin.ext (by
      match d with | ⟨0, _⟩ => rfl | ⟨1, _⟩ => rfl | ⟨2, _⟩ => rfl)))

end Cert.LibRank3
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibCosine.lean ====
/-
  The negated cosine similarity of the rows of two matrices, on the extended reals.

  A row of a matrix is "brought to unit length": each entry is divided by the larger of the row's Euclidean
  length √(Σ_q x(i,q)²) and a small positive constant ε (so a zero row stays zero instead of dividing by zero).
  The result at (b, j) is minus the inner product of row b of the first matrix and row j of the second, both so
  divided.  This module states that function (`unitRow`, `negCos`) over any extents and reads, at an entry
  written by coordinates, the two chains of vector operations that compute it blockwise:

  * the normalisation: the elementwise square, its sum along each row, the sum recast as a column, its square root,
    the maximum with the splat ε, the column spread back along the rows, and the quotient;
  * the product: a normalised block times the TRANSPOSE of an already normalised matrix into a zero accumulator,
    subtracted from the zero splat — and `0 - y = -y` on the extended reals without any finiteness.

  A narrowing of the float format is the identity on extended reals, so it disappears.  General lemmas: any extents
  (the floor ε is the single-precision word of 1e-8).
-/
import proofs.«175156_j9620726743322_1_alg».proof.Proof.LibKeepdims
import proofs.«175156_j9620726743322_1_alg».proof.Proof.LibRank3
import proofs.«175156_j9620726743322_1_alg».proof.Proof.LibPlainDot
import Idealize.ShloMosaic.Lib.ValueLayout
import Idealize.ShloMosaic.Lib.ValueIdx
import Idealize.ShloMosaic.Lib.Pipeline.Value
import Idealize.ShloMosaic.PureOps.Ideal.Laws

noncomputable section

namespace Cert.Cosine

open Idealize.ShloMosaic Idealize.ShloMosaic.ValueIdx

/-- The smallest length a row is divided by: the extended real the single-precision word of 1e-8 denotes. -/
def eps : EReal := Ideal.ofBits .f32 0x322BCC77#32

/-- Entry `(i, k)` of a matrix whose row `i` is divided by the larger of its Euclidean length and `eps`. -/
def unitRow {a b : ℕ} (x : (⟨2, ![a, b]⟩ : Shape).Idx → EReal) (i : Fin a) (k : Fin b) : EReal :=
  Ideal.div (x (ix2 i k)) (max (Ideal.sqrt (∑ q : Fin b, x (ix2 i q) * x (ix2 i q))) eps)

/-- `unitRow` of a row depends on that row's entries only: two matrices (of any heights) that agree along a row
    of each give the same divided row. -/
theorem unitRow_congr {a a' b : ℕ} (x : (⟨2, ![a, b]⟩ : Shape).Idx → EReal) (x' : (⟨2, ![a', b]⟩ : Shape).Idx → EReal)
    (i : Fin a) (i' : Fin a') (h : ∀ q : Fin b, x (ix2 i q) = x' (ix2 i' q)) (k : Fin b) :
    unitRow x i k = unitRow x' i' k := by
  have hs : (∑ q : Fin b, x (ix2 i q) * x (ix2 i q)) = ∑ q : Fin b, x' (ix2 i' q) * x' (ix2 i' q) :=
    Finset.sum_congr rfl fun q _ => by rw [h q]
  unfold unitRow
  rw [h k, hs]

/-- Minus the inner product of row `p` of `x`, brought to unit length, with row `j` of an already divided matrix `cn`. -/
def negDot {a n b : ℕ} (x : (⟨2, ![a, b]⟩ : Shape).Idx → EReal) (cn : (⟨2, ![n, b]⟩ : Shape).Idx → EReal)
    (p : Fin a) (j : Fin n) : EReal :=
  -∑ q : Fin b, unitRow x p q * cn (ix2 j q)

/-- The negated cosine similarity of row `p` of `x` and row `j` of `c`. -/
def negCos {a n b : ℕ} (x : (⟨2, ![a, b]⟩ : Shape).Idx → EReal) (c : (⟨2, ![n, b]⟩ : Shape).Idx → EReal)
    (p : Fin a) (j : Fin n) : EReal :=
  -∑ q : Fin b, unitRow x p q * unitRow c j q

/-! ## The normalisation as the kernels spell it, at an entry -/

/-- The square, the sum along each row (from the zero word), the cast of the sums to a column, the square root, the
    maximum with the splat `eps`, the column spread along the rows, the quotient: at `(i, k)` this is `unitRow x i k`. -/
theorem normalize_apply {a b : ℕ} (x : FVec Ideal ⟨2, ![a, b]⟩ .f32)
    (hr : (⟨2, ![a, b]⟩ : Shape).Reduces [1] ⟨1, ![a]⟩) (hφ : FKind.Formats FTy.f32)
    (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (i : Fin a) (k : Fin b) :
    divf x (broadcastTo ⟨2, ![a, b]⟩ (maximumf (sqrt (shapeCast ⟨2, ![a, 1]⟩
        (multiReduction .add [1] ⟨1, ![a]⟩ (mulf x x) 0x00000000#32 hr hφ hacc) hc))
      (broadcast ⟨2, ![a, 1]⟩ (Scalar.ofBits (F := Ideal) .f32 0x322BCC77#32))) hb) (ix2 i k) = unitRow x i k := by
  show Ideal.div (x (ix2 i k)) (broadcastTo ⟨2, ![a, b]⟩ _ hb (ix2 i k)) = _
  rw [Cert.LibKeepdims.broadcastTo_a1_ab_apply]
  show Ideal.div (x (ix2 i k)) (max (Ideal.sqrt (shapeCast ⟨2, ![a, 1]⟩ _ hc (ix2 i (0 : Fin 1)))) eps) = _
  rw [Cert.LibKeepdims.shapeCast_a_a1_apply, Cert.LibRank3.sum_last2]
  rfl

/-! ## The product with the transposed table, at an entry -/

/-- A block `l` times the transpose of a square table `cn` (recast to its own shape first), accumulated from the zero
    splat and subtracted from the zero splat: at `(p, j)` minus the sum over `q` of `l (p, q) · cn (j, q)`. -/
theorem negProduct_apply {a n : ℕ} {φ₁ φ₂ : FTy} (D : DotDims ⟨2, ![a, n]⟩ ⟨2, ![n, n]⟩ ⟨2, ![a, n]⟩) (hD : D = DotDims.plain a n n)
    (l : FVec Ideal ⟨2, ![a, n]⟩ φ₁) (cn : FVec Ideal ⟨2, ![n, n]⟩ φ₂)
    (hs : (⟨2, ![n, n]⟩ : Shape).ShapeCasts ⟨2, ![n, n]⟩) (ht : (⟨2, ![n, n]⟩ : Shape).Transposes [1, 0] ⟨2, ![n, n]⟩)
    (p : Fin a) (j : Fin n) :
    subf (broadcast ⟨2, ![a, n]⟩ (Scalar.ofBits (F := Ideal) .f32 0x00000000#32))
        (matmul D none l (transpose ⟨2, ![n, n]⟩ [1, 0] (shapeCast ⟨2, ![n, n]⟩ cn hs) ht)
          (constant (F := Ideal) ⟨2, ![a, n]⟩ .f32 0x00000000#32)) (ix2 p j)
      = -∑ q : Fin n, l (ix2 p q) * cn (ix2 j q) := by
  show (Ideal.ofBits .f32 0x00000000#32 : EReal) - matmul D none l _ _ (ix2 p j) = _
  rw [Ideal.ofBits_zero_f32, zero_sub, Cert.PlainDot.matmul_zero_ix2 D hD none l _ p j]
  refine congrArg Neg.neg (Finset.sum_congr rfl fun q _ => ?_)
  rw [shapeCast_self, transpose_ix2_apply]

end Cert.Cosine

end
-- ==== Proof.Table.lean ====
/-
  The first region: the table of unit-length centroid rows.

  The region has one grid point; its input block and its output block are the whole 1024 × 1024 arrays.  The body
  loads the centroids, brings each row to unit length and stores the result.  So the output array ends holding, at
  `(r, k)`, `unitRow` of the centroids as the region found them.
-/
import proofs.«175156_j9620726743322_1_alg».proof.Proof.Gen.KernelIdeal.Frame
import proofs.«175156_j9620726743322_1_alg».proof.Proof.LibCosine

set_option maxRecDepth 16384

noncomputable section

namespace Cert.KernelIdeal.Table

open Cert.KernelIdeal Cert.KernelIdeal.Gen Cert.Cosine
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The table: every row of the centroids brought to unit length. -/
def unitRows (cm : S1024x1024.Idx → EReal) : S1024x1024.Idx → EReal :=
  fun i => unitRow cm (⟨(i 0).val, (i 0).isLt⟩ : Fin 1024) (⟨(i 1).val, (i 1).isLt⟩ : Fin 1024)

/-- The body's stored value at `(r, k)`: the loaded block's row `r` brought to unit length (the narrowing of the
    format is the identity). -/
theorem pay_apply (v0 : FVec Ideal S1024x1024 .f32) (r k : Fin 1024) :
    k0_pay1 (F := Ideal) v0 (ix2 r k) = unitRow v0 r k :=
  normalize_apply v0 reduces_S1024x1024_S1024 (.inl rfl) rfl shapeCasts_S1024_S1024x1 broadcasts_S1024x1_S1024x1024 r k

/-- Both windows sit at block (0, 0) at the one grid point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The input block is the centroid array itself. -/
theorem cblk_apply (c : Dev nD) (t : Fin cfg0.N) (r k : Fin 1024) :
    (iblk0 V c 0 t : FVec Ideal S1024x1024 .f32) (ix2 r k) = (V c main_arg1 : S1024x1024.Idx → EReal) (ix2 r k) := by
  obtain ⟨e0, e1, -, -⟩ := idx_facts t
  unfold iblk0
  rw [View.read_apply]
  show V c main_arg1 _ = V c main_arg1 _
  refine congrArg (V c main_arg1) (funext fun a => Fin.ext ?_)
  match a with
  | ⟨0, _⟩ => show win0_0.index t (0 : Fin 2) * 1024 + 1 * r.val = r.val; rw [e0]; omega
  | ⟨1, _⟩ => show win0_0.index t (1 : Fin 2) * 1024 + 1 * k.val = k.val; rw [e1]; omega

/-- What the one point writes back is the table, read through the output's block. -/
theorem flushed_eq (c : Dev nD) (t : Fin cfg0.N) :
    (dat0 V c).flushed 1 t = ((cfg0.win 1).blk t).view.read (Elt Ideal) (unitRows (V c main_arg1)) := by
  show (cfg0.win 1).cut (grid0.coords t) ((dat0 V c).after 1 t) = _
  rw [after0_1]
  unfold out0_1
  rw [View.canon_unit_zero hz]
  simp only [View.ld_unit_zero (S := S1024x1024) hz]
  obtain ⟨-, -, e2, e3⟩ := idx_facts t
  funext y
  obtain ⟨r, k, rfl⟩ : ∃ (r k : Fin 1024), y = ix2 r k := ⟨y 0, y 1, eq_ix2 y⟩
  have hemb : ((cfg0.win 1).blk t).view.emb (ix2 r k) = ix2 r k := funext fun a => Fin.ext (by
    match a with
    | ⟨0, _⟩ => show win0_1.index t (0 : Fin 2) * 1024 + 1 * r.val = r.val; rw [e2]; omega
    | ⟨1, _⟩ => show win0_1.index t (1 : Fin 2) * 1024 + 1 * k.val = k.val; rw [e3]; omega)
  show k0_pay1 (F := Ideal) (iblk0 V c 0 t) (ix2 r k)
    = unitRows (V c main_arg1) (((cfg0.win 1).blk t).view.emb (ix2 r k))
  rw [hemb]
  exact (pay_apply (iblk0 V c 0 t) r k).trans (unitRow_congr _ _ r r (fun q => cblk_apply V c t r q) k)

/-- An index of the table is in the point's block iff each coordinate is in the block's range on its axis. -/
theorem mem_blk (t : Fin cfg0.N) (i : S1024x1024.Idx) :
    i ∈ ((cfg0.win 1).blk t).view.set ↔ ∀ a : Fin 2, win0_1.index t a * S1024x1024.size a ≤ (i a).val
      ∧ (i a).val < win0_1.index t a * S1024x1024.size a + S1024x1024.size a := by
  show i ∈ ((View.whole main_v0).slice (win0_1.rect t)).set ↔ _
  rw [View.set_slice_whole, Rect.mem_set_unit]
  exact Iff.rfl

/-- The table array after the region: the one block covers it. -/
theorem final (c : Dev nD) : (dat0 V c).arrAt 1 cfg0.N = unitRows (V c main_arg1) :=
  (dat0 V c).arrAt_eq_of_cover 1 _ (fun t _ => flushed_eq V c t) (fun i => ⟨t0_0, flush0_1 t0_0, by
    obtain ⟨-, -, e2, e3⟩ := idx_facts t0_0
    rw [mem_blk]
    intro a
    have h0 : (i 0).val < 1024 := (i 0).isLt
    have h1 : (i 1).val < 1024 := (i 1).isLt
    match a with
    | ⟨0, _⟩ => show win0_1.index t0_0 (0 : Fin 2) * 1024 ≤ (i 0).val ∧ (i 0).val < win0_1.index t0_0 (0 : Fin 2) * 1024 + 1024; omega
    | ⟨1, _⟩ => show win0_1.index t0_0 (1 : Fin 2) * 1024 ≤ (i 1).val ∧ (i 1).val < win0_1.index t0_0 (1 : Fin 2) * 1024 + 1024; omega⟩)

end Cert.KernelIdeal.Table

end
-- ==== Proof.Classify.lean ====
/-
  The second region: the negated inner products, block by block.

  The grid has 16 points.  At point `t` the body loads rows `1024 t … 1024 t + 1023` of the batch and the whole table,
  brings the batch rows to unit length, multiplies the block by the transposed table into a zero accumulator and stores
  zero minus the product into rows `1024 t …` of the result.  A row's unit form depends on that row alone, so block
  `t` of the result is the restriction to those rows of ONE function of the whole batch and the table: at `(b, j)`
  minus the inner product of the batch's unit row `b` with the table's row `j`.  The 16 blocks tile the result.
-/
import proofs.«175156_j9620726743322_1_alg».proof.Proof.Gen.KernelIdeal.Frame
import proofs.«175156_j9620726743322_1_alg».proof.Proof.LibCosine

set_option maxRecDepth 16384

noncomputable section

namespace Cert.KernelIdeal.Classify

open Cert.KernelIdeal Cert.KernelIdeal.Gen Cert.Cosine
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the region leaves in the result array, from the batch and the table as it finds them. -/
def negDots (x : S16384x1024.Idx → EReal) (cn : S1024x1024.Idx → EReal) : S16384x1024.Idx → EReal :=
  fun i => negDot x cn (⟨(i 0).val, (i 0).isLt⟩ : Fin 16384) (⟨(i 1).val, (i 1).isLt⟩ : Fin 1024)

/-- The body's stored value at `(p, j)`: minus the inner product of the loaded batch block's unit row `p` with the
    loaded table's row `j`. -/
theorem pay_apply (v0 : FVec Ideal S1024x1024 .f32) (v10 : FVec Ideal S1024x1024 .bf16) (p j : Fin 1024) :
    k1_pay1 (F := Ideal) v0 v10 (ix2 p j) = negDot v0 v10 p j := by
  refine (negProduct_apply dot_S1024x1024_S1024x1024_S1024x1024_1_0_0_1_n_n rfl _ v10
    shapeCasts_S1024x1024_S1024x1024 transposes_S1024x1024_p1_0_S1024x1024 p j).trans ?_
  unfold negDot
  refine congrArg Neg.neg (Finset.sum_congr rfl fun q _ => ?_)
  refine congrArg (· * v10 (ix2 j q)) ?_
  exact normalize_apply v0 reduces_S1024x1024_S1024 (.inl rfl) rfl shapeCasts_S1024_S1024x1 broadcasts_S1024x1_S1024x1024 p q

/-- The printed index maps over the grid: the batch window and the result window sit at block row `t`, the table
    window at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The batch block at point `t` is rows `1024 t …` of the batch. -/
theorem xblk_apply (c : Dev nD) (t : Fin cfg1.N) (p q : Fin 1024) (b : Fin 16384) (hb : b.val = 1024 * t.val + p.val) :
    (iblk1 V c 0 t : FVec Ideal S1024x1024 .f32) (ix2 p q) = (V c main_arg0 : S16384x1024.Idx → EReal) (ix2 b q) := by
  obtain ⟨e0, e1, -, -, -, -⟩ := idx_facts t
  unfold iblk1
  rw [View.read_apply]
  show V c main_arg0 _ = V c main_arg0 _
  refine congrArg (V c main_arg0) (funext fun a => Fin.ext ?_)
  match a with
  | ⟨0, _⟩ => show win1_0.index t (0 : Fin 2) * 1024 + 1 * p.val = b.val; rw [e0, hb]; omega
  | ⟨1, _⟩ => show win1_0.index t (1 : Fin 2) * 1024 + 1 * q.val = q.val; rw [e1]; omega

/-- The table block at any point is the table. -/
theorem tblk_apply (c : Dev nD) (t : Fin cfg1.N) (j q : Fin 1024) :
    (iblk1 V c 1 t : FVec Ideal S1024x1024 .bf16) (ix2 j q) = (V c main_v0 : S1024x1024.Idx → EReal) (ix2 j q) := by
  obtain ⟨-, -, e2, e3, -, -⟩ := idx_facts t
  unfold iblk1
  rw [View.read_apply]
  show V c main_v0 _ = V c main_v0 _
  refine congrArg (V c main_v0) (funext fun a => Fin.ext ?_)
  match a with
  | ⟨0, _⟩ => show win1_1.index t (0 : Fin 2) * 1024 + 1 * j.val = j.val; rw [e2]; omega
  | ⟨1, _⟩ => show win1_1.index t (1 : Fin 2) * 1024 + 1 * q.val = q.val; rw [e3]; omega

/-- What point `t` writes back is block `t` of `negDots` of the batch and the table as the region finds them. -/
theorem flushed_eq (c : Dev nD) (t : Fin cfg1.N) :
    (dat1 V c).flushed 2 t = ((cfg1.win 2).blk t).view.read (Elt Ideal) (negDots (V c main_arg0) (V c main_v0)) := by
  show (cfg1.win 2).cut (grid1.coords t) ((dat1 V c).after 2 t) = _
  rw [after1_2]
  unfold out1_2
  rw [View.canon_unit_zero hz]
  simp only [View.ld_unit_zero (S := S1024x1024) hz]
  obtain ⟨-, -, -, -, e4, e5⟩ := idx_facts t
  have hN : cfg1.N = 16 := N_1
  have ht : t.val < 16 := by have := t.isLt; omega
  funext y
  obtain ⟨p, j, rfl⟩ : ∃ (p j : Fin 1024), y = ix2 p j := ⟨y 0, y 1, eq_ix2 y⟩
  have hb : 1024 * t.val + p.val < 16384 := by have := p.isLt; omega
  have hemb : ((cfg1.win 2).blk t).view.emb (ix2 p j) = ix2 (⟨1024 * t.val + p.val, hb⟩ : Fin 16384) j :=
    funext fun a => Fin.ext (by
      match a with
      | ⟨0, _⟩ => show win1_2.index t (0 : Fin 2) * 1024 + 1 * p.val = 1024 * t.val + p.val; rw [e4]; omega
      | ⟨1, _⟩ => show win1_2.index t (1 : Fin 2) * 1024 + 1 * j.val = j.val; rw [e5]; omega)
  show k1_pay1 (F := Ideal) (iblk1 V c 0 t) (iblk1 V c 1 t) (ix2 p j)
    = negDots (V c main_arg0) (V c main_v0) (((cfg1.win 2).blk t).view.emb (ix2 p j))
  rw [hemb]
  refine (pay_apply (iblk1 V c 0 t) (iblk1 V c 1 t) p j).trans ?_
  show -(∑ q : Fin 1024, unitRow (iblk1 V c 0 t) p q * (iblk1 V c 1 t : FVec Ideal S1024x1024 .bf16) (ix2 j q))
    = -∑ q : Fin 1024, unitRow (V c main_arg0) (⟨1024 * t.val + p.val, hb⟩ : Fin 16384) q
        * (V c main_v0 : S1024x1024.Idx → EReal) (ix2 j q)
  exact congrArg Neg.neg (Finset.sum_congr rfl fun q _ =>
    congrArg₂ (fun u v : EReal => u * v)
      (unitRow_congr _ _ p _ (fun q' => xblk_apply V c t p q' _ rfl) q) (tblk_apply V c t j q))

/-- An index of the result is in point `t`'s block iff each coordinate is in the block's range on its axis. -/
theorem mem_blk (t : Fin cfg1.N) (i : S16384x1024.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v1).slice (win1_2.rect t)).set ↔ _
  rw [View.set_slice_whole, Rect.mem_set_unit]
  exact Iff.rfl

/-- The result array after the region: the 16 row blocks tile it; row `b` is in block `b / 1024`. -/
theorem final (c : Dev nD) : (dat1 V c).arrAt 2 cfg1.N = negDots (V c main_arg0) (V c main_v0) :=
  (dat1 V c).arrAt_eq_of_cover 2 _ (fun t _ => flushed_eq V c t) (fun i => by
    have hN : cfg1.N = 16 := N_1
    have h0 : (i 0).val < 16384 := (i 0).isLt
    have h1 : (i 1).val < 1024 := (i 1).isLt
    obtain ⟨t, ht⟩ : ∃ t : Fin cfg1.N, t.val = (i 0).val / 1024 := ⟨⟨(i 0).val / 1024, by omega⟩, rfl⟩
    obtain ⟨-, -, -, -, e4, e5⟩ := idx_facts t
    refine ⟨t, flush1_2 t, ?_⟩
    rw [mem_blk]
    intro a
    match a with
    | ⟨0, _⟩ => show win1_2.index t (0 : Fin 2) * 1024 ≤ (i 0).val ∧ (i 0).val < win1_2.index t (0 : Fin 2) * 1024 + 1024; omega
    | ⟨1, _⟩ => show win1_2.index t (1 : Fin 2) * 1024 ≤ (i 1).val ∧ (i 1).val < win1_2.index t (1 : Fin 2) * 1024 + 1024; omega)

end Cert.KernelIdeal.Classify

end
-- ==== Proof.KernelValue.lean ====
/-
  The kernel program's result array as one function of its two argument arrays.

  The second region leaves, at `(b, j)`, minus the inner product of the batch's unit row `b` with row `j` of the table it
  found; the table it found is what the first region left: the centroids' rows brought to unit length; and each region
  found the argument it reads as launched.  Together: the negated cosine similarity of batch row `b` and centroid row `j`.
-/
import proofs.«175156_j9620726743322_1_alg».proof.Proof.RunNamed
import proofs.«175156_j9620726743322_1_alg».proof.Proof.Table
import proofs.«175156_j9620726743322_1_alg».proof.Proof.Classify

noncomputable section

namespace Cert.KernelIdeal.Result

open Cert.KernelIdeal Cert.KernelIdeal.Gen Cert.Cosine
open Idealize.ShloMosaic Idealize.ShloMosaic.TcCoe Idealize.ShloMosaic.ValueIdx Idealize.SL.Sem

/-- The result: at `(b, j)` the negated cosine similarity of row `b` of the batch and row `j` of the centroids. -/
def negCosines (x : S16384x1024.Idx → EReal) (cm : S1024x1024.Idx → EReal) : S16384x1024.Idx → EReal :=
  fun i => negCos x cm (⟨(i 0).val, (i 0).isLt⟩ : Fin 16384) (⟨(i 1).val, (i 1).isLt⟩ : Fin 1024)

/-- The inner products against the table of unit rows are the cosine similarities. -/
theorem negDots_unitRows (x : S16384x1024.Idx → EReal) (cm : S1024x1024.Idx → EReal) :
    Classify.negDots x (Table.unitRows cm) = negCosines x cm := by
  funext i
  show negDot x (Table.unitRows cm) _ _ = negCos x cm _ _
  unfold negDot negCos
  exact congrArg Neg.neg (Finset.sum_congr rfl fun q _ => rfl)

variable (m : (ℓ : Loc nD τ sig) → Buf (Elt Ideal) ℓ) (ρ : Dev nD → PrngReg)

/-- The result array after the run, from the launch contents of the two arguments. -/
theorem value (c : Dev nD) :
    V2 m ρ c main_v1 = negCosines (m ((c.tc : Thread nD τ).loc main_arg0)) (m ((c.tc : Thread nD τ).loc main_arg1)) :=
  calc V2 m ρ c main_v1
    _ = (dat1 (V1 m ρ) c).arrAt 2 cfg1.N := result_arr m ρ c
    _ = Classify.negDots (V1 m ρ c main_arg0) (V1 m ρ c main_v0) := Classify.final (V1 m ρ) c
    _ = Classify.negDots (m ((c.tc : Thread nD τ).loc main_arg0)) (Table.unitRows (V0 m ρ c main_arg1)) :=
        congrArg₂ Classify.negDots (batch_arr m ρ c) ((table_arr m ρ c).trans (Table.final (V0 m ρ) c))
    _ = negCosines (m ((c.tc : Thread nD τ).loc main_arg0)) (m ((c.tc : Thread nD τ).loc main_arg1)) :=
        negDots_unitRows _ _

/-- Every weakly fair execution of the program terminates, nothing faulting, with the result array at the negated
    cosine similarities of the launch contents and the arguments unchanged. -/
theorem run : θ_run defs (onTc (τ := τ) (main (F := Ideal))) ⟨m, fun _ => 0, ρ⟩ (fun r => ∀ c : Dev nD,
      r.2.mem ((c.tc : Thread nD τ).loc main_v1)
        = negCosines (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (value m ρ c), (h c).2⟩) (run_named (F := Ideal) m ρ)

end Cert.KernelIdeal.Result

end
-- ==== Proof.RefValue.lean ====
/-
  What the reference computes, at an entry: the negated cosine similarity.

  The reference brings each matrix's rows to unit length — the square, the sum along the row from the zero constant,
  the sums spread to a column, the square root, the maximum with the spread constant ε, the column spread along the
  rows, the quotient — and contracts the second axes of the two results, then negates.  Each stage is read at an
  index from the stage before it; the composed index functions are the coordinates one expects (row `p`, column
  `q`), and the zero constant the sums start from disappears.
-/
import proofs.«175156_j9620726743322_1_alg».proof.Proof.Gen.ReferenceIdeal.Read
import proofs.«175156_j9620726743322_1_alg».proof.Proof.LibCosine

noncomputable section

namespace Cert.ReferenceIdeal.RefValue

open Cert.ReferenceIdeal Cert.ReferenceIdeal.Gen Cert.ReferenceIdeal.Read Cert.Cosine
open Idealize.ShloMosaic Idealize.ShloMosaic.ValueIdx

/-! ## The first matrix's rows, brought to unit length -/

/-- The sum of squares along row `p` of the first matrix (the sum starts from the zero constant). -/
theorem sumsq0 (x0 : (⟨S16384x1024, .f32⟩ : BufTy).Contents (Elt Ideal)) (p : Fin 16384) :
    val_main_call0_v1 (F := Ideal) x0 (ix1 p) = ∑ q : Fin 1024, x0 (ix2 p q) * x0 (ix2 p q) := by
  refine (val_main_call0_v1_apply x0 (ix1 p)).trans ?_
  show Ideal.ofBits .f32 0x00000000#32
      + (∑ k : Fin 1024, x0 (idx_main_call0_v1 (ix1 p) k) * x0 (idx_main_call0_v1 (ix1 p) k)) = _
  rw [Ideal.ofBits_zero_f32, zero_add]
  refine Finset.sum_congr rfl fun q _ => ?_
  have e : idx_main_call0_v1 (ix1 p) q = ix2 p q :=
    funext fun a => Fin.ext (by match a with | ⟨0, _⟩ => rfl | ⟨1, _⟩ => rfl)
  rw [e]

/-- The length row `p` is divided by: the larger of its Euclidean length and ε. -/
theorem len0 (x0 : (⟨S16384x1024, .f32⟩ : BufTy).Contents (Elt Ideal)) (p : Fin 16384) :
    val_main_v2 (F := Ideal) x0 (ix2 p (0 : Fin 1)) = max (Ideal.sqrt (∑ q : Fin 1024, x0 (ix2 p q) * x0 (ix2 p q))) eps := by
  have e : idx_main_call0_v2 (ix2 p (0 : Fin 1)) = ix1 p :=
    funext fun a => Fin.ext (by match a with | ⟨0, _⟩ => rfl)
  have h1 : val_main_call0_v2 (F := Ideal) x0 (ix2 p (0 : Fin 1)) = ∑ q : Fin 1024, x0 (ix2 p q) * x0 (ix2 p q) := by
    rw [val_main_call0_v2_apply, e, sumsq0]
  have h2 : val_main_v1 (F := Ideal) (ix2 p (0 : Fin 1)) = eps :=
    (val_main_v1_apply (F := Ideal) (ix2 p (0 : Fin 1))).trans rfl
  rw [val_main_v2_apply, Ideal.maximumf_def, val_main_v0_apply, Ideal.hostUnary_sqrt_def, h1, h2]

/-- Row `p` of the first matrix brought to unit length, at column `k`. -/
theorem row0 (x0 : (⟨S16384x1024, .f32⟩ : BufTy).Contents (Elt Ideal)) (p : Fin 16384) (k : Fin 1024) :
    val_main_v4 (F := Ideal) x0 (ix2 p k) = unitRow x0 p k := by
  have e : idx_main_v3 (ix2 p k) = ix2 p (0 : Fin 1) :=
    funext fun a => Fin.ext (by match a with | ⟨0, _⟩ => rfl | ⟨1, _⟩ => rfl)
  unfold unitRow
  rw [val_main_v4_apply, Ideal.hostDivf_def, val_main_v3_apply, e, len0]

/-! ## The second matrix's rows, brought to unit length -/

/-- The sum of squares along row `j` of the second matrix. -/
theorem sumsq1 (x1 : (⟨S1024x1024, .f32⟩ : BufTy).Contents (Elt Ideal)) (j : Fin 1024) :
    val_main_call1_v1 (F := Ideal) x1 (ix1 j) = ∑ q : Fin 1024, x1 (ix2 j q) * x1 (ix2 j q) := by
  refine (val_main_call1_v1_apply x1 (ix1 j)).trans ?_
  show Ideal.ofBits .f32 0x00000000#32
      + (∑ k : Fin 1024, x1 (idx_main_call1_v1 (ix1 j) k) * x1 (idx_main_call1_v1 (ix1 j) k)) = _
  rw [Ideal.ofBits_zero_f32, zero_add]
  refine Finset.sum_congr rfl fun q _ => ?_
  have e : idx_main_call1_v1 (ix1 j) q = ix2 j q :=
    funext fun a => Fin.ext (by match a with | ⟨0, _⟩ => rfl | ⟨1, _⟩ => rfl)
  rw [e]

/-- The length row `j` is divided by. -/
theorem len1 (x1 : (⟨S1024x1024, .f32⟩ : BufTy).Contents (Elt Ideal)) (j : Fin 1024) :
    val_main_v7 (F := Ideal) x1 (ix2 j (0 : Fin 1)) = max (Ideal.sqrt (∑ q : Fin 1024, x1 (ix2 j q) * x1 (ix2 j q))) eps := by
  have e : idx_main_call1_v2 (ix2 j (0 : Fin 1)) = ix1 j :=
    funext fun a => Fin.ext (by match a with | ⟨0, _⟩ => rfl)
  have h1 : val_main_call1_v2 (F := Ideal) x1 (ix2 j (0 : Fin 1)) = ∑ q : Fin 1024, x1 (ix2 j q) * x1 (ix2 j q) := by
    rw [val_main_call1_v2_apply, e, sumsq1]
  have h2 : val_main_v6 (F := Ideal) (ix2 j (0 : Fin 1)) = eps :=
    (val_main_v6_apply (F := Ideal) (ix2 j (0 : Fin 1))).trans rfl
  rw [val_main_v7_apply, Ideal.maximumf_def, val_main_v5_apply, Ideal.hostUnary_sqrt_def, h1, h2]

/-- Row `j` of the second matrix brought to unit length, at column `k`. -/
theorem row1 (x1 : (⟨S1024x1024, .f32⟩ : BufTy).Contents (Elt Ideal)) (j k : Fin 1024) :
    val_main_v9 (F := Ideal) x1 (ix2 j k) = unitRow x1 j k := by
  have e : idx_main_v8 (ix2 j k) = ix2 j (0 : Fin 1) :=
    funext fun a => Fin.ext (by match a with | ⟨0, _⟩ => rfl | ⟨1, _⟩ => rfl)
  unfold unitRow
  rw [val_main_v9_apply, Ideal.hostDivf_def, val_main_v8_apply, e, len1]

/-! ## The result -/

/-- The reference's result at `(p, j)`: minus the inner product of the two unit rows. -/
theorem result_apply (x0 : (⟨S16384x1024, .f32⟩ : BufTy).Contents (Elt Ideal)) (x1 : (⟨S1024x1024, .f32⟩ : BufTy).Contents (Elt Ideal))
    (p : Fin 16384) (j : Fin 1024) :
    val_main_v11 (F := Ideal) x0 x1 (ix2 p j) = negCos x0 x1 p j := by
  show -(val_main_v10 (F := Ideal) x0 x1 (ix2 p j)) = -∑ q : Fin 1024, unitRow x0 p q * unitRow x1 j q
  refine congrArg Neg.neg ((val_main_v10_apply x0 x1 (ix2 p j)).trans (Finset.sum_congr rfl fun k _ => ?_))
  have el : lidx_main_v10 (ix2 p j) k = ix2 p k :=
    funext fun a => Fin.ext (by match a with | ⟨0, _⟩ => rfl | ⟨1, _⟩ => rfl)
  have er : ridx_main_v10 (ix2 p j) k = ix2 j k :=
    funext fun a => Fin.ext (by match a with | ⟨0, _⟩ => rfl | ⟨1, _⟩ => rfl)
  rw [el, er, row0, row1]

/-- The reference's result array, as one function of the two argument arrays. -/
theorem result_eq (x0 : (⟨S16384x1024, .f32⟩ : BufTy).Contents (Elt Ideal)) (x1 : (⟨S1024x1024, .f32⟩ : BufTy).Contents (Elt Ideal)) :
    val_main_v11 (F := Ideal) x0 x1
      = fun i => negCos x0 x1 (⟨(i 0).val, (i 0).isLt⟩ : Fin 16384) (⟨(i 1).val, (i 1).isLt⟩ : Fin 1024) := by
  funext i
  obtain ⟨p, j, rfl⟩ : ∃ (p : Fin 16384) (j : Fin 1024), i = ix2 p j := ⟨i 0, i 1, eq_ix2 i⟩
  exact result_apply x0 x1 p j

end Cert.ReferenceIdeal.RefValue

end
-- ==== Proof.lean ====
/-
  The certificate's claims.

  The kernel program normalises the centroids in one region and, in a second region over 16 row blocks of the batch,
  normalises the batch rows and multiplies them by the transposed table, storing zero minus the product.  The
  reference normalises both matrices on the host, contracts their second axes and negates.  On the extended reals
  both end holding, at `(b, j)`, minus the sum over `q` of the two unit rows' products — the same sum in the same
  order, the only law between them `0 - y = -y` — so the inputs' finiteness is never used.

  The three frames are the generated ones (the reference's is its generated run with the result dropped); the
  idealization rewrote no operation, so there is nothing to preserve; the value claim pairs the kernel program's run
  (its result array read through both regions) with the reference's run read stage by stage.
-/
import proofs.«175156_j9620726743322_1_alg».proof.Defs
import proofs.«175156_j9620726743322_1_alg».proof.Proof.Gen.Kernel
import proofs.«175156_j9620726743322_1_alg».proof.Proof.Gen.Kernel.Skeleton
import proofs.«175156_j9620726743322_1_alg».proof.Proof.Gen.Kernel.Launch
import proofs.«175156_j9620726743322_1_alg».proof.Proof.Gen.Kernel.Points
import proofs.«175156_j9620726743322_1_alg».proof.Proof.Gen.Kernel.Frame
import proofs.«175156_j9620726743322_1_alg».proof.Proof.Gen.KernelIdeal
import proofs.«175156_j9620726743322_1_alg».proof.Proof.Gen.KernelIdeal.Skeleton
import proofs.«175156_j9620726743322_1_alg».proof.Proof.Gen.KernelIdeal.Launch
import proofs.«175156_j9620726743322_1_alg».proof.Proof.Gen.KernelIdeal.Points
import proofs.«175156_j9620726743322_1_alg».proof.Proof.Gen.KernelIdeal.Frame
import proofs.«175156_j9620726743322_1_alg».proof.Proof.Gen.ReferenceIdeal
import proofs.«175156_j9620726743322_1_alg».proof.Proof.Gen.Pre_finite_inputs
import proofs.«175156_j9620726743322_1_alg».proof.Proof.Gen.ReferenceIdeal.Run
import proofs.«175156_j9620726743322_1_alg».proof.Proof.Gen.ReferenceIdeal.Read
import proofs.«175156_j9620726743322_1_alg».proof.Proof.KernelValue
import proofs.«175156_j9620726743322_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments, both programs end with the negated cosine similarities of the
    kernel program's launch contents in their result arrays. -/
theorem algebraic : Cert.algebraic_KernelIdeal_ReferenceIdeal := by
  intro m ρ m' ρ' _ hagree
  refine ⟨fun c => Cert.KernelIdeal.Result.negCosines
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
